-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x602 : Shape := ⟨2, ![200000, 602]⟩
abbrev S128x602 : Shape := ⟨2, ![128, 602]⟩
abbrev S128 : Shape := ⟨1, ![128]⟩
abbrev S41x128 : Shape := ⟨2, ![41, 128]⟩
abbrev S41 : Shape := ⟨1, ![41]⟩
abbrev S50000 : Shape := ⟨1, ![50000]⟩
abbrev S10000x25 : Shape := ⟨2, ![10000, 25]⟩
abbrev S_ : Shape := ⟨0, ![]⟩

class Facts : Prop where
  bcast_S_S200000x602 : S_.BroadcastsInDim S200000x602 (![] : Fin 0 → Fin S200000x602.rank)
  reducesTo_S200000x602_S_d0_1 : S200000x602.ReducesTo [0, 1] S_
  h_S_ : 0 < S_.numel
  bcast_S_S128x602 : S_.BroadcastsInDim S128x602 (![] : Fin 0 → Fin S128x602.rank)
  reducesTo_S128x602_S_d0_1 : S128x602.ReducesTo [0, 1] S_
  bcast_S_S128 : S_.BroadcastsInDim S128 (![] : Fin 0 → Fin S128.rank)
  reducesTo_S128_S_d0 : S128.ReducesTo [0] S_
  bcast_S_S41x128 : S_.BroadcastsInDim S41x128 (![] : Fin 0 → Fin S41x128.rank)
  reducesTo_S41x128_S_d0_1 : S41x128.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg4 : FVec F S41 .f32) (main_v13 : IVec S_ 1) (main_v16 : IVec S41x128 1) : IVec S_ 1 :=
  let main_c_5 : IVec S_ 1 := constantI S_ 1 1#1
  let main_v17 : IVec S_ 1 := (fun x v => Host.reduce IntOp.andi x v reducesTo_S41x128_S_d0_1 h_S_) main_v16 main_c_5
  let main_v18 : IVec S_ 1 := andi main_v13 main_v17
  let main_v19 : FVec F S41 .f32 := Host.absf main_arg4
  let main_cst_6 : FVec F S_ .f32 := constant S_ .f32 0x7F800000#32
  let main_v20 : FVec F S41 .f32 := broadcastInDim S41 ![] bcast_S_S41 main_cst_6
  let main_v21 : IVec S41 1 := cmpf .olt main_v19 main_v20
  let main_c_7 : IVec S_ 1 := constantI S_ 1 1#1
  let main_v22 : IVec S_ 1 := (fun x v => Host.reduce IntOp.andi x v reducesTo_S41_S_d0 h_S_) main_v21 main_c_7
  let main_v23 : IVec S_ 1 := andi main_v18 main_v22
  main_v23

def fn {F : FTy → Type} [FloatOps F] (main_arg0 : FVec F S200000x602 .f32) (main_arg1 : FVec F S128x602 .f32) (main_arg2 : FVec F S128 .f32) (main_arg3 : FVec F S41x128 .f32) (main_arg4 : FVec F S41 .f32) (main_arg5 : IVec S50000 32) (main_arg6 : IVec S10000x25 32) : IVec S_ 1 :=
  let main_v0 : FVec F S200000x602 .f32 := Host.absf main_arg0
  let main_cst : FVec F S_ .f32 := constant S_ .f32 0x7F800000#32
  let main_v1 : FVec F S200000x602 .f32 := broadcastInDim S200000x602 ![] bcast_S_S200000x602 main_cst
  let main_v2 : IVec S200000x602 1 := cmpf .olt main_v0 main_v1
  let main_c : IVec S_ 1 := constantI S_ 1 1#1
  let main_v3 : IVec S_ 1 := (fun x v => Host.reduce IntOp.andi x v reducesTo_S200000x602_S_d0_1 h_S_) main_v2 main_c
  let main_v4 : FVec F S128x602 .f32 := Host.absf main_arg1
  let main_cst_0 : FVec F S_ .f32 := constant S_ .f32 0x7F800000#32
  let main_v5 : FVec F S128x602 .f32 := broadcastInDim S128x602 ![] bcast_S_S128x602 main_cst_0
  let main_v6 : IVec S128x602 1 := cmpf .olt main_v4 main_v5
  let main_c_1 : IVec S_ 1 := constantI S_ 1 1#1
  let main_v7 : IVec S_ 1 := (fun x v => Host.reduce IntOp.andi x v reducesTo_S128x602_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S41x128 .f32 := Host.absf main_arg3
  let main_cst_4 : FVec F S_ .f32 := constant S_ .f32 0x7F800000#32
  let main_v15 : FVec F S41x128 .f32 := broadcastInDim S41x128 ![] bcast_S_S41x128 main_cst_4
  let main_v16 : IVec S41x128 1 := cmpf .olt main_v14 main_v15
  fn_part1 (F := F) main_arg4 main_v13 main_v16
-- ==== Kernel.lean ====
abbrev S200000x602 : Shape := ⟨2, ![200000, 602]⟩
abbrev S128x602 : Shape := ⟨2, ![128, 602]⟩
abbrev S128 : Shape := ⟨1, ![128]⟩
abbrev S41x128 : Shape := ⟨2, ![41, 128]⟩
abbrev S41 : Shape := ⟨1, ![41]⟩
abbrev S50000 : Shape := ⟨1, ![50000]⟩
abbrev S10000x25 : Shape := ⟨2, ![10000, 25]⟩
abbrev S602x128 : Shape := ⟨2, ![602, 128]⟩
abbrev S128x41 : Shape := ⟨2, ![128, 41]⟩
abbrev S200000x128 : Shape := ⟨2, ![200000, 128]⟩
abbrev S4000x602 : Shape := ⟨2, ![4000, 602]⟩
abbrev S4000x128 : Shape := ⟨2, ![4000, 128]⟩
abbrev S1x128 : Shape := ⟨2, ![1, 128]⟩
abbrev S_ : Shape := ⟨0, ![]⟩
abbrev S50000x1 : Shape := ⟨2, ![50000, 1]⟩
abbrev S50000x128 : Shape := ⟨2, ![50000, 128]⟩
abbrev S10000x25x1 : Shape := ⟨3, ![10000, 25, 1]⟩
abbrev S10000x25x128 : Shape := ⟨3, ![10000, 25, 128]⟩
abbrev S10000x41 : Shape := ⟨2, ![10000, 41]⟩
abbrev S1000x25x128 : Shape := ⟨3, ![1000, 25, 128]⟩
abbrev S1000x41 : Shape := ⟨2, ![1000, 41]⟩
abbrev S1000x128 : Shape := ⟨2, ![1000, 128]⟩
abbrev S1x41 : Shape := ⟨2, ![1, 41]⟩

abbrev nBuf : Space → Nat
  | .hbm => 30
  | .vmem => 12
  | .smem => 0
  | _ => 0

abbrev bufTy : (tb : Table) → Fin (tcTables nBuf tb) → BufTy
  | .hbm, ⟨0, _⟩ => ⟨S200000x602, .f32⟩
  | .hbm, ⟨1, _⟩ => ⟨S128x602, .f32⟩
  | .hbm, ⟨2, _⟩ => ⟨S128, .f32⟩
  | .hbm, ⟨3, _⟩ => ⟨S41x128, .f32⟩
  | .hbm, ⟨4, _⟩ => ⟨S41, .f32⟩
  | .hbm, ⟨5, _⟩ => ⟨S50000, .i32⟩
  | .hbm, ⟨6, _⟩ => ⟨S10000x25, .i32⟩
  | .hbm, ⟨7, _⟩ => ⟨S602x128, .f32⟩
  | .hbm, ⟨8, _⟩ => ⟨S128x41, .f32⟩
  | .hbm, ⟨9, _⟩ => ⟨S200000x128, .f32⟩
  | .hbm, ⟨10, _⟩ => ⟨S_, .i32⟩
  | .hbm, ⟨11, _⟩ => ⟨S50000, .i32⟩
  | .hbm, ⟨12, _⟩ => ⟨S50000, .i1⟩
  | .hbm, ⟨13, _⟩ => ⟨S_, .i32⟩
  | .hbm, ⟨14, _⟩ => ⟨S50000, .i32⟩
  | .hbm, ⟨15, _⟩ => ⟨S50000, .i32⟩
  | .hbm, ⟨16, _⟩ => ⟨S50000, .i32⟩
  | .hbm, ⟨17, _⟩ => ⟨S50000x1, .i32⟩
  | .hbm, ⟨18, _⟩ => ⟨S50000x128, .f32⟩
  | .hbm, ⟨19, _⟩ => ⟨S_, .i32⟩
  | .hbm, ⟨20, _⟩ => ⟨S10000x25, .i32⟩
  | .hbm, ⟨21, _⟩ => ⟨S10000x25, .i1⟩
  | .hbm, ⟨22, _⟩ => ⟨S_, .i32⟩
  | .hbm, ⟨23, _⟩ => ⟨S10000x25, .i32⟩
  | .hbm, ⟨24, _⟩ => ⟨S10000x25, .i32⟩
  | .hbm, ⟨25, _⟩ => ⟨S10000x25, .i32⟩
  | .hbm, ⟨26, _⟩ => ⟨S10000x25x1, .i32⟩
  | .hbm, ⟨27, _⟩ => ⟨S10000x25x128, .f32⟩
  | .hbm, ⟨28, _⟩ => ⟨S10000x25x128, .bf16⟩
  | .hbm, ⟨29, _⟩ => ⟨S10000x41, .f32⟩
  | .local _ .vmem, ⟨0, _⟩ => ⟨S4000x602, .f32⟩
  | .local _ .vmem, ⟨1, _⟩ => ⟨S4000x602, .f32⟩
  | .local _ .vmem, ⟨2, _⟩ => ⟨S602x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S1000x25x128, .bf16⟩
  | .local _ .vmem, ⟨7, _⟩ => ⟨S1000x25x128, .bf16⟩
  | .local _ .vmem, ⟨8, _⟩ => ⟨S128x41, .f32⟩
  | .local _ .vmem, ⟨9, _⟩ => ⟨S41, .f32⟩
  | .local _ .vmem, ⟨10, _⟩ => ⟨S1000x41, .f32⟩
  | .local _ .vmem, ⟨11, _⟩ => ⟨S1000x41, .f32⟩
  | _, _ => ⟨S200000x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S602x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x25x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x41 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S41 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x41 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x602_S602x128_1_0 : S128x602.Transposes [1, 0] S602x128
  transposes_S41x128_S128x41_1_0 : S41x128.Transposes [1, 0] S128x41
  inb_S4000x602_S4000x602_0_0 : ∀ a, (![0, 0] : Fin 2 → Nat) a + S4000x602.size a ≤ S4000x602.size a
  h_S4000x602 : 0 < S4000x602.numel
  bitsLt_bf16_f32 : FTy.bits .bf16 < FTy.bits .f32
  inb_S602x128_S602x128_0_0 : ∀ a, (![0, 0] : Fin 2 → Nat) a + S602x128.size a ≤ S602x128.size a
  h_S602x128 : 0 < S602x128.numel
  shapeCasts_S602x128_S602x128 : S602x128.ShapeCasts S602x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S50000 : S_.BroadcastsInDim S50000 (![] : Fin 0 → Fin S50000.rank)
  bcast_S50000_S50000x1_0 : S50000.BroadcastsInDim S50000x1 (![0] : Fin 1 → Fin S50000x1.rank)
  bcast_S_S10000x25 : S_.BroadcastsInDim S10000x25 (![] : Fin 0 → Fin S10000x25.rank)
  bcast_S10000x25_S10000x25x1_0_1 : S10000x25.BroadcastsInDim S10000x25x1 (![0, 1] : Fin 2 → Fin S10000x25x1.rank)
  inb_S1000x25x128_S1000x25x128_0_0_0 : ∀ a, (![0, 0, 0] : Fin 3 → Nat) a + S1000x25x128.size a ≤ S1000x25x128.size a
  h_S1000x25x128 : 0 < S1000x25x128.numel
  shapeCasts_S1000x25x128_S1000x25x128 : S1000x25x128.ShapeCasts S1000x25x128
  reduces_S1000x25x128_S1000x128 : S1000x25x128.Reduces [1] S1000x128
  inb_S128x41_S128x41_0_0 : ∀ a, (![0, 0] : Fin 2 → Nat) a + S128x41.size a ≤ S128x41.size a
  h_S128x41 : 0 < S128x41.numel
  shapeCasts_S128x41_S128x41 : S128x41.ShapeCasts S128x41
  inb_S41_S41_0 : ∀ a, (![0] : Fin 1 → Nat) a + S41.size a ≤ S41.size a
  h_S41 : 0 < S41.numel
  shapeCasts_S41_S1x41 : S41.ShapeCasts S1x41
  broadcasts_S1x41_S1000x41 : S1x41.Broadcasts S1000x41
  inb_S1000x41_S1000x41_0_0 : ∀ a, (![0, 0] : Fin 2 → Nat) a + S1000x41.size a ≤ S1000x41.size a
  h_S1000x41 : 0 < S1000x41.numel
  dot_S4000x602_S602x128_S4000x128_1_0_0_1_n_n_wf : DotDims.WF S4000x602 S602x128 S4000x128 [1] [0] [0] [1] [] []
  gather_S200000x128_S50000x1_S50000x128_1_0_n_n_0_1_1128_wf : GatherDims.WF S200000x128 S50000x1 S50000x128 [1] [0] [] [0] [] 1 ![1, 128]
  gather_S50000x128_S10000x25x1_S10000x25x128_2_0_n_n_0_2_1128_wf : GatherDims.WF S50000x128 S10000x25x1 S10000x25x128 [2] [0] [] [0] [] 2 ![1, 128]
  dot_S1000x128_S128x41_S1000x41_1_0_0_1_n_n_wf : DotDims.WF S1000x128 S128x41 S1000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x602.size a ≤ S200000x602.size a
  hwx0_0 : ∀ i : grid0.Coords, EltTy.bits .f32 = 32 ∨ (Rect.block (s := S200000x602) S4000x602.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S602x128.size a ≤ S602x128.size a
  hwx0_1 : ∀ i : grid0.Coords, EltTy.bits .f32 = 32 ∨ (Rect.block (s := S602x128) S602x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x25x128.size a ≤ S10000x25x128.size a
  hwx1_0 : ∀ i : grid1.Coords, EltTy.bits .bf16 = 32 ∨ (Rect.block (s := S10000x25x128) S1000x25x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x41.size a ≤ S128x41.size a
  hwx1_1 : ∀ i : grid1.Coords, EltTy.bits .f32 = 32 ∨ (Rect.block (s := S128x41) S128x41.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S41.size a ≤ S41.size a
  hwx1_2 : ∀ i : grid1.Coords, EltTy.bits .f32 = 32 ∨ (Rect.block (s := S41) S41.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x41.size a ≤ S10000x41.size a
  hwx1_3 : ∀ i : grid1.Coords, EltTy.bits .f32 = 32 ∨ (Rect.block (s := S10000x41) S1000x41.size (cc1_transform_3 i) (hinb1_3 i)).WholeWords (EltTy.packing .f32)

variable [Facts₀]

def dot_S4000x602_S602x128_S4000x128_1_0_0_1_n_n : DotDims S4000x602 S602x128 S4000x128 where
  lhsContracting := [1]
  rhsContracting := [0]
  lhsNonContracting := [0]
  rhsNonContracting := [1]
  lhsBatch := []
  rhsBatch := []
  wf := dot_S4000x602_S602x128_S4000x128_1_0_0_1_n_n_wf
def gather_S200000x128_S50000x1_S50000x128_1_0_n_n_0_1_1128 : GatherDims S200000x128 S50000x1 S50000x128 where
  offsetDims := [1]
  collapsedSliceDims := [0]
  operandBatchingDims := []
  startIndicesBatchingDims := []
  startIndexMap := [0]
  indexVectorDim := 1
  sliceSizes := ![1, 128]
  wf := gather_S200000x128_S50000x1_S50000x128_1_0_n_n_0_1_1128_wf
def gather_S50000x128_S10000x25x1_S10000x25x128_2_0_n_n_0_2_1128 : GatherDims S50000x128 S10000x25x1 S10000x25x128 where
  offsetDims := [2]
  collapsedSliceDims := [0]
  operandBatchingDims := []
  startIndicesBatchingDims := []
  startIndexMap := [0]
  indexVectorDim := 2
  sliceSizes := ![1, 128]
  wf := gather_S50000x128_S10000x25x1_S10000x25x128_2_0_n_n_0_2_1128_wf
def dot_S1000x128_S128x41_S1000x41_1_0_0_1_n_n : DotDims S1000x128 S128x41 S1000x41 where
  lhsContracting := [1]
  rhsContracting := [0]
  lhsNonContracting := [0]
  rhsNonContracting := [1]
  lhsBatch := []
  rhsBatch := []
  wf := dot_S1000x128_S128x41_S1000x41_1_0_0_1_n_n_wf

abbrev win0_0 : Pipeline.Window sig grid0 :=
  Pipeline.Window.ofSpec (Memref.whole main_arg0) S4000x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S602x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S1000x25x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x41.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S41.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1000x41.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x602 : Shape := ⟨2, ![200000, 602]⟩
abbrev S128x602 : Shape := ⟨2, ![128, 602]⟩
abbrev S128 : Shape := ⟨1, ![128]⟩
abbrev S41x128 : Shape := ⟨2, ![41, 128]⟩
abbrev S41 : Shape := ⟨1, ![41]⟩
abbrev S50000 : Shape := ⟨1, ![50000]⟩
abbrev S10000x25 : Shape := ⟨2, ![10000, 25]⟩
abbrev S200000x128 : Shape := ⟨2, ![200000, 128]⟩
abbrev S1x128 : Shape := ⟨2, ![1, 128]⟩
abbrev S_ : Shape := ⟨0, ![]⟩
abbrev S50000x1 : Shape := ⟨2, ![50000, 1]⟩
abbrev S50000x128 : Shape := ⟨2, ![50000, 128]⟩
abbrev S10000x25x1 : Shape := ⟨3, ![10000, 25, 1]⟩
abbrev S10000x25x128 : Shape := ⟨3, ![10000, 25, 128]⟩
abbrev S10000x128 : Shape := ⟨2, ![10000, 128]⟩
abbrev S10000x41 : Shape := ⟨2, ![10000, 41]⟩
abbrev S1x41 : Shape := ⟨2, ![1, 41]⟩

abbrev nBuf : Space → Nat
  | .hbm => 41
  | .vmem => 0
  | .smem => 0
  | _ => 0

abbrev bufTy : (tb : Table) → Fin (tcTables nBuf tb) → BufTy
  | .hbm, ⟨0, _⟩ => ⟨S200000x602, .f32⟩
  | .hbm, ⟨1, _⟩ => ⟨S128x602, .f32⟩
  | .hbm, ⟨2, _⟩ => ⟨S128, .f32⟩
  | .hbm, ⟨3, _⟩ => ⟨S41x128, .f32⟩
  | .hbm, ⟨4, _⟩ => ⟨S41, .f32⟩
  | .hbm, ⟨5, _⟩ => ⟨S50000, .i32⟩
  | .hbm, ⟨6, _⟩ => ⟨S10000x25, .i32⟩
  | .hbm, ⟨7, _⟩ => ⟨S200000x128, .f32⟩
  | .hbm, ⟨8, _⟩ => ⟨S1x128, .f32⟩
  | .hbm, ⟨9, _⟩ => ⟨S200000x128, .f32⟩
  | .hbm, ⟨10, _⟩ => ⟨S200000x128, .f32⟩
  | .hbm, ⟨11, _⟩ => ⟨S_, .f32⟩
  | .hbm, ⟨12, _⟩ => ⟨S200000x128, .f32⟩
  | .hbm, ⟨13, _⟩ => ⟨S200000x128, .f32⟩
  | .hbm, ⟨14, _⟩ => ⟨S_, .i32⟩
  | .hbm, ⟨15, _⟩ => ⟨S50000, .i32⟩
  | .hbm, ⟨16, _⟩ => ⟨S50000, .i1⟩
  | .hbm, ⟨17, _⟩ => ⟨S_, .i32⟩
  | .hbm, ⟨18, _⟩ => ⟨S50000, .i32⟩
  | .hbm, ⟨19, _⟩ => ⟨S50000, .i32⟩
  | .hbm, ⟨20, _⟩ => ⟨S50000, .i32⟩
  | .hbm, ⟨21, _⟩ => ⟨S50000x1, .i32⟩
  | .hbm, ⟨22, _⟩ => ⟨S50000x128, .f32⟩
  | .hbm, ⟨23, _⟩ => ⟨S_, .i32⟩
  | .hbm, ⟨24, _⟩ => ⟨S10000x25, .i32⟩
  | .hbm, ⟨25, _⟩ => ⟨S10000x25, .i1⟩
  | .hbm, ⟨26, _⟩ => ⟨S_, .i32⟩
  | .hbm, ⟨27, _⟩ => ⟨S10000x25, .i32⟩
  | .hbm, ⟨28, _⟩ => ⟨S10000x25, .i32⟩
  | .hbm, ⟨29, _⟩ => ⟨S10000x25, .i32⟩
  | .hbm, ⟨30, _⟩ => ⟨S10000x25x1, .i32⟩
  | .hbm, ⟨31, _⟩ => ⟨S10000x25x128, .f32⟩
  | .hbm, ⟨32, _⟩ => ⟨S_, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S10000x41, .f32⟩
  | .hbm, ⟨38, _⟩ => ⟨S1x41, .f32⟩
  | .hbm, ⟨39, _⟩ => ⟨S10000x41, .f32⟩
  | .hbm, ⟨40, _⟩ => ⟨S10000x41, .f32⟩
  | _, _ => ⟨S200000x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S10000x25 : S_.BroadcastsInDim S10000x25 (![] : Fin 0 → Fin S10000x25.rank)
  bcast_S10000x25_S10000x25x1_0_1 : S10000x25.BroadcastsInDim S10000x25x1 (![0, 1] : Fin 2 → Fin S10000x25x1.rank)
  reducesTo_S10000x25x128_S10000x128_d1 : S10000x25x128.ReducesTo [1] S10000x128
  h_S_ : 0 < S_.numel
  bcast_S_S10000x128 : S_.BroadcastsInDim S10000x128 (![] : Fin 0 → Fin S10000x128.rank)
  bcast_S41_S1x41_1 : S41.BroadcastsInDim S1x41 (![1] : Fin 1 → Fin S1x41.rank)
  bcast_S1x41_S10000x41_0_1 : S1x41.BroadcastsInDim S10000x41 (![0, 1] : Fin 2 → Fin S10000x41.rank)
  dot_S200000x602_S128x602_S200000x128_1_1_0_0_n_n_wf : DotDims.WF S200000x602 S128x602 S200000x128 [1] [1] [0] [0] [] []
  gather_S200000x128_S50000x1_S50000x128_1_0_n_n_0_1_1128_wf : GatherDims.WF S200000x128 S50000x1 S50000x128 [1] [0] [] [0] [] 1 ![1, 128]
  gather_S50000x128_S10000x25x1_S10000x25x128_2_0_n_n_0_2_1128_wf : GatherDims.WF S50000x128 S10000x25x1 S10000x25x128 [2] [0] [] [0] [] 2 ![1, 128]
  dot_S10000x128_S41x128_S10000x41_1_1_0_0_n_n_wf : DotDims.WF S10000x128 S41x128 S10000x41 [1] [1] [0] [0] [] []

variable [Facts₀]

def dot_S200000x602_S128x602_S200000x128_1_1_0_0_n_n : DotDims S200000x602 S128x602 S200000x128 where
  lhsContracting := [1]
  rhsContracting := [1]
  lhsNonContracting := [0]
  rhsNonContracting := [0]
  lhsBatch := []
  rhsBatch := []
  wf := dot_S200000x602_S128x602_S200000x128_1_1_0_0_n_n_wf
def gather_S200000x128_S50000x1_S50000x128_1_0_n_n_0_1_1128 : GatherDims S200000x128 S50000x1 S50000x128 where
  offsetDims := [1]
  collapsedSliceDims := [0]
  operandBatchingDims := []
  startIndicesBatchingDims := []
  startIndexMap := [0]
  indexVectorDim := 1
  sliceSizes := ![1, 128]
  wf := gather_S200000x128_S50000x1_S50000x128_1_0_n_n_0_1_1128_wf
def gather_S50000x128_S10000x25x1_S10000x25x128_2_0_n_n_0_2_1128 : GatherDims S50000x128 S10000x25x1 S10000x25x128 where
  offsetDims := [2]
  collapsedSliceDims := [0]
  operandBatchingDims := []
  startIndicesBatchingDims := []
  startIndexMap := [0]
  indexVectorDim := 2
  sliceSizes := ![1, 128]
  wf := gather_S50000x128_S10000x25x1_S10000x25x128_2_0_n_n_0_2_1128_wf
def dot_S10000x128_S41x128_S10000x41_1_1_0_0_n_n : DotDims S10000x128 S41x128 S10000x41 where
  lhsContracting := [1]
  rhsContracting := [1]
  lhsNonContracting := [0]
  rhsNonContracting := [0]
  lhsBatch := []
  rhsBatch := []
  wf := dot_S10000x128_S41x128_S10000x41_1_1_0_0_n_n_wf

class Facts : Prop extends Facts₀ where

variable [Facts]
-- ==== Proof.KernelRun.lean ====
/-
  The idealized kernel's run with its result array named.

  The program is four segments: two host transposes, the first pipelined region (the hidden layer, 50 row
  blocks), nineteen host operations (the two index normalisations, the two row gathers, the change of format), and the
  second pipelined region (the neighbour mean and the output layer, 10 row blocks). Every weakly fair execution ends
  with each unscoped buffer at the last boundary's contents; the result buffer is the second region's output array,
  so it ends at what that region's write-backs leave, `(dat1 (V3 m ρ) c).arrAt 3 cfg1.N`, and the seven argument
  arrays end as launched.
-/
import proofs.«181294_j30322469110460_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the second
    region's output array after its ten write-backs and the argument arrays as launched. -/
theorem run_named : θ_run defs (onTc (τ := τ) (main (F := F))) ⟨m, fun _ => 0, ρ⟩ (fun r => ∀ c : Dev nD,
      r.2.mem ((c.tc : Thread nD τ).loc main_v18) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v18 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.LibMatmulCols.lean ====
/-
  A matrix product that contracts BOTH operands' leading axes, read at one entry.

  For dimension numbers that contract the left operand's first axis with the right operand's first axis — the left
  operand [n, a], the right operand [n, b], the result [a, b], no batch axes: the product of the left operand's
  transpose with the right operand, no transpose formed — the entry (p, q) of the product is the sum over k of
  left (k, p) times right (k, q).

  `matmul_zero_cols`   a `tpu.matmul` into the zero accumulator at the ideal instance.
-/
import Idealize.ShloMosaic.PureOps.Ideal.Laws
import Idealize.ShloMosaic.Lib.ValueIdx

noncomputable section

open scoped BigOperators

namespace Cert.Lib.MatmulCols

open Idealize.ShloMosaic Idealize.ShloMosaic.ValueIdx

variable {a n b : ℕ}

/-- A `tpu.matmul` of an [n, a] by an [n, b] operand contracting the two leading axes, into the zero accumulator, at
    the ideal instance, read at `(p, q)`: the sum over `k` of left `(k, p)` times right `(k, q)`. -/
theorem matmul_zero_cols {φ₁ φ₂ : FTy}
    (w : DotDims.WF ⟨2, ![n, a]⟩ ⟨2, ![n, b]⟩ ⟨2, ![a, b]⟩ [0] [0] [1] [1] [] [])
    (prec : Option ContractPrecision) (l : FVec Ideal ⟨2, ![n, a]⟩ φ₁) (r : FVec Ideal ⟨2, ![n, b]⟩ φ₂)
    (p : Fin a) (q : Fin b) :
    matmul (⟨[0], [0], [1], [1], [], [], w⟩ : DotDims ⟨2, ![n, a]⟩ ⟨2, ![n, b]⟩ ⟨2, ![a, b]⟩) prec l r
        (constant ⟨2, ![a, b]⟩ .f32 0x00000000#32) (ix2 p q)
      = ∑ k : Fin n, l (ix2 k p) * r (ix2 k q) := by
  refine (Ideal.matmul_constant_zero_apply (⟨[0], [0], [1], [1], [], [], w⟩ : DotDims ⟨2, ![n, a]⟩ ⟨2, ![n, b]⟩ ⟨2, ![a, b]⟩) prec l r (ix2 p q)).trans ?_
  rw [← Equiv.sum_comp (contrEquiv1 (⟨[0], [0], [1], [1], [], [], w⟩ : DotDims ⟨2, ![n, a]⟩ ⟨2, ![n, b]⟩ ⟨2, ![a, b]⟩) n rfl rfl).symm]
  refine Finset.sum_congr rfl fun k _ => ?_
  have c2 := contrEquiv1_symm_val
    (⟨[0], [0], [1], [1], [], [], w⟩ : DotDims ⟨2, ![n, a]⟩ ⟨2, ![n, b]⟩ ⟨2, ![a, b]⟩) n rfl rfl k
  have l2 : (⟨[0], [0], [1], [1], [], [], w⟩ : DotDims ⟨2, ![n, a]⟩ ⟨2, ![n, b]⟩ ⟨2, ![a, b]⟩).lhsIdx (ix2 p q)
      ((contrEquiv1 _ n rfl rfl).symm k) = ix2 k p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![n, a]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

/-- The plain product of an [a, n] by an [n, b] operand as a `tpu.matmul` into the zero accumulator, at the ideal
    instance, read at `(p, q)`: the sum over `k` of left `(p, k)` times right `(k, q)`. -/
theorem matmul_zero_plain {φ₁ φ₂ : FTy}
    (w : DotDims.WF ⟨2, ![a, n]⟩ ⟨2, ![n, b]⟩ ⟨2, ![a, b]⟩ [1] [0] [0] [1] [] [])
    (prec : Option ContractPrecision) (l : FVec Ideal ⟨2, ![a, n]⟩ φ₁) (r : FVec Ideal ⟨2, ![n, b]⟩ φ₂)
    (p : Fin a) (q : Fin b) :
    matmul (⟨[1], [0], [0], [1], [], [], w⟩ : DotDims ⟨2, ![a, n]⟩ ⟨2, ![n, b]⟩ ⟨2, ![a, b]⟩) prec l r
        (constant ⟨2, ![a, b]⟩ .f32 0x00000000#32) (ix2 p q)
      = ∑ k : Fin n, l (ix2 p k) * r (ix2 k q) := by
  refine (Ideal.matmul_constant_zero_apply (⟨[1], [0], [0], [1], [], [], w⟩ : DotDims ⟨2, ![a, n]⟩ ⟨2, ![n, b]⟩ ⟨2, ![a, b]⟩) prec l r (ix2 p q)).trans ?_
  rw [← Equiv.sum_comp (contrEquiv1 (⟨[1], [0], [0], [1], [], [], w⟩ : DotDims ⟨2, ![a, n]⟩ ⟨2, ![n, b]⟩ ⟨2, ![a, b]⟩) n rfl rfl).symm]
  refine Finset.sum_congr rfl fun k _ => ?_
  have c2 := contrEquiv1_symm_val
    (⟨[1], [0], [0], [1], [], [], w⟩ : DotDims ⟨2, ![a, n]⟩ ⟨2, ![n, b]⟩ ⟨2, ![a, b]⟩) n rfl rfl k
  have l2 : (⟨[1], [0], [0], [1], [], [], w⟩ : DotDims ⟨2, ![a, n]⟩ ⟨2, ![n, b]⟩ ⟨2, ![a, b]⟩).lhsIdx (ix2 p q)
      ((contrEquiv1 _ n rfl rfl).symm k) = ix2 p k := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, n]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

end Cert.Lib.MatmulCols

end
-- ==== Proof.HiddenPayload.lean ====
/-
  The first kernel's stored block, read at an entry.

  At a grid point the body holds a [4000, 602] block x of the features, the whole [602, 128] transposed weight matrix
  w and the [128] bias b. It stores the [4000, 128] block whose entry (p, q) is the larger of zero and
  (∑ k, x (p, k) · w (k, q)) + b q: the changes of float format around the product are the identity on extended
  reals, the product into a zero accumulator is the plain sum over the contracted axis, and the bias row is repeated
  down the rows.
-/
import proofs.«181294_j30322469110460_1_alg».proof.Proof.Gen.KernelIdeal.Skeleton
import proofs.«181294_j30322469110460_1_alg».proof.Proof.LibMatmulCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hidden

open Cert.KernelIdeal Cert.KernelIdeal.Gen
open Idealize.ShloMosaic Idealize.ShloMosaic.ValueIdx

/-- Entry (p, q) of the block the first kernel stores: relu of the row of x against the column of w, plus the bias. -/
theorem pay_apply (x : Vec Ideal S4000x602 .f32) (w : Vec Ideal S602x128 .f32) (b : Vec Ideal S128 .f32)
    (p : Fin 4000) (q : Fin 128) :
    k0_pay1 (F := Ideal) x w b (ix2 p q)
      = max ((∑ k : Fin 602, x (ix2 p k) * w (ix2 k q)) + b (ix1 q)) (Ideal.ofBits .f32 0x00000000#32) := by
  have hm : matmul (F := Ideal) dot_S4000x602_S602x128_S4000x128_1_0_0_1_n_n none (truncf .bf16 x bitsLt_bf16_f32)
        (truncf .bf16 (shapeCast S602x128 w shapeCasts_S602x128_S602x128) bitsLt_bf16_f32)
        (constant (F := Ideal) S4000x128 .f32 0x00000000#32) (ix2 p q)
      = (∑ k : Fin 602, x (ix2 p k) * w (ix2 k q) : EReal) := by
    rw [shapeCast_self]
    exact Cert.Lib.MatmulCols.matmul_zero_plain dot_S4000x602_S602x128_S4000x128_1_0_0_1_n_n_wf none
      (truncf .bf16 x bitsLt_bf16_f32) (truncf .bf16 w bitsLt_bf16_f32) p q
  have hb : broadcastTo S4000x128 (shapeCast S1x128 b shapeCasts_S128_S1x128) broadcasts_S1x128_S4000x128 (ix2 p q)
      = b (ix1 q) :=
    (broadcastTo_1b_ab_apply _ broadcasts_S1x128_S4000x128 p q).trans
      (shapeCast_a_1a_apply b shapeCasts_S128_S1x128 (0 : Fin 1) q)
  show max ((matmul (F := Ideal) dot_S4000x602_S602x128_S4000x128_1_0_0_1_n_n none (truncf .bf16 x bitsLt_bf16_f32)
        (truncf .bf16 (shapeCast S602x128 w shapeCasts_S602x128_S602x128) bitsLt_bf16_f32)
        (constant (F := Ideal) S4000x128 .f32 0x00000000#32) (ix2 p q)
      + broadcastTo S4000x128 (shapeCast S1x128 b shapeCasts_S128_S1x128) broadcasts_S1x128_S4000x128 (ix2 p q) : EReal))
      (Ideal.ofBits .f32 0x00000000#32) = _
  rw [hm, hb]

end Cert.KernelIdeal.Hidden

end
-- ==== Proof.Net.lean ====
/-
  The network as functions of whole arrays, over the extended reals.

  `hidden x w b` is the first layer on every node: entry (n, h) is the larger of zero and
  (∑ k, x (n, k) · w (k, h)) + b h, with w the [602, 128] (already transposed) weights.
  `logits g w b` is the neighbour mean followed by the output layer: entry (n, c) is
  (∑ k, ((∑ j, g (n, j, k)) / 25) · w (k, c)) + b c, with g the [10000, 25, 128] gathered hidden rows and w the
  [128, 41] (already transposed) output weights. The two float constants stay the words the programs print.
-/
import Idealize.ShloMosaic.PureOps.Ideal
import Idealize.ShloMosaic.Lib.ValueIdx

noncomputable section

open scoped BigOperators

namespace Cert.Net

open Idealize.ShloMosaic Idealize.ShloMosaic.ValueIdx

/-- The first layer with its relu, on all 200000 nodes. -/
def hidden (x : (⟨2, ![200000, 602]⟩ : Shape).Idx → EReal) (w : (⟨2, ![602, 128]⟩ : Shape).Idx → EReal)
    (b : (⟨1, ![128]⟩ : Shape).Idx → EReal) : (⟨2, ![200000, 128]⟩ : Shape).Idx → EReal :=
  fun i => max ((∑ k : Fin 602, x (ix2 (i 0) k) * w (ix2 k (i 1))) + b (ix1 (i 1))) (Ideal.ofBits .f32 0x00000000#32)

/-- The mean over the 25 sampled neighbours and the output layer, on the 10000 seed nodes. -/
def logits (g : (⟨3, ![10000, 25, 128]⟩ : Shape).Idx → EReal) (w : (⟨2, ![128, 41]⟩ : Shape).Idx → EReal)
    (b : (⟨1, ![41]⟩ : Shape).Idx → EReal) : (⟨2, ![10000, 41]⟩ : Shape).Idx → EReal :=
  fun i => (∑ k : Fin 128, Ideal.div (∑ j : Fin 25, g (ix3 (i 0) j k)) (Ideal.ofBits .f32 0x41C80000#32) * w (ix2 k (i 1)))
    + b (ix1 (i 1))

theorem hidden_apply (x : (⟨2, ![200000, 602]⟩ : Shape).Idx → EReal) (w : (⟨2, ![602, 128]⟩ : Shape).Idx → EReal)
    (b : (⟨1, ![128]⟩ : Shape).Idx → EReal) (n : Fin 200000) (h : Fin 128) :
    hidden x w b (ix2 n h)
      = max ((∑ k : Fin 602, x (ix2 n k) * w (ix2 k h)) + b (ix1 h)) (Ideal.ofBits .f32 0x00000000#32) := rfl

theorem logits_apply (g : (⟨3, ![10000, 25, 128]⟩ : Shape).Idx → EReal) (w : (⟨2, ![128, 41]⟩ : Shape).Idx → EReal)
    (b : (⟨1, ![41]⟩ : Shape).Idx → EReal) (n : Fin 10000) (c : Fin 41) :
    logits g w b (ix2 n c)
      = (∑ k : Fin 128, Ideal.div (∑ j : Fin 25, g (ix3 n j k)) (Ideal.ofBits .f32 0x41C80000#32) * w (ix2 k c))
        + b (ix1 c) := rfl

end Cert.Net

end
-- ==== Proof.HiddenArray.lean ====
/-
  The first region's output array is the hidden layer of the arrays the region finds.

  The region walks 50 row blocks. At point t the features window holds rows 4000 t … 4000 t + 3999, the weight and bias
  windows hold their whole arrays, and the body's stored block is written back to rows 4000 t … 4000 t + 3999 of the
  output. Each stored entry is the hidden layer's entry at its row of the whole arrays, the 50 blocks cover the
  200000 rows, so after the region the output array is `Net.hidden` of the three input arrays.
-/
import proofs.«181294_j30322469110460_1_alg».proof.Proof.Gen.KernelIdeal.Frame
import proofs.«181294_j30322469110460_1_alg».proof.Proof.HiddenPayload
import proofs.«181294_j30322469110460_1_alg».proof.Proof.Net
import Idealize.ShloMosaic.Lib.Pipeline.Value

noncomputable section

open scoped BigOperators

namespace Cert.KernelIdeal.Hidden

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block index of every window at point t: the features and the output move down one block of rows per point,
    the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- An entry of the body's stored block, from what its three loaded blocks hold in terms of whole arrays. -/
theorem block_entry (X : (⟨2, ![200000, 602]⟩ : Shape).Idx → EReal) (Wt : (⟨2, ![602, 128]⟩ : Shape).Idx → EReal)
    (B : (⟨1, ![128]⟩ : Shape).Idx → EReal)
    (x : Vec Ideal S4000x602 .f32) (w : Vec Ideal S602x128 .f32) (b : Vec Ideal S128 .f32)
    (P : Fin 200000) (p : Fin 4000) (q : Fin 128)
    (hx : ∀ k : Fin 602, x (ix2 p k) = X (ix2 P k)) (hw : ∀ (k : Fin 602), w (ix2 k q) = Wt (ix2 k q))
    (hb : b (ix1 q) = B (ix1 q)) :
    k0_pay1 (F := Ideal) x w b (ix2 p q) = Net.hidden X Wt B (ix2 P q) := by
  rw [pay_apply, Net.hidden_apply, hb]
  simp only [hx, hw]

/-- The features window's block at point t is rows 4000 t … of the features array. -/
theorem blk_x (c : Dev nD) (t : Fin cfg0.N) (y : S4000x602.Idx) (k : S200000x602.Idx)
    (hk0 : (k 0).val = 4000 * t.val + (y 0).val) (hk1 : (k 1).val = (y 1).val) :
    (iblk0 V c 0 t : Vec Ideal S4000x602 .f32) y = (V c main_arg0 : S200000x602.Idx → EReal) k := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 4000 + 1 * (y 0).val = (k 0).val; rw [e0, hk0]; omega
  | ⟨1, _⟩ => show win0_0.index t 1 * 602 + 1 * (y 1).val = (k 1).val; rw [e1, hk1]; omega

/-- The weight window's block at every point is the whole transposed weight array. -/
theorem blk_w (c : Dev nD) (t : Fin cfg0.N) (y : S602x128.Idx) :
    (iblk0 V c 1 t : Vec Ideal S602x128 .f32) y = (V c main_v0 : S602x128.Idx → EReal) y := by
  obtain ⟨-, -, e0, e1, -⟩ := idx_facts t
  unfold iblk0
  rw [View.read_apply]
  show V c main_v0 _ = V c main_v0 _
  refine congrArg (V c main_v0) ?_
  funext a
  apply Fin.ext
  match a with
  | ⟨0, _⟩ => show win0_1.index t 0 * 602 + 1 * (y 0).val = (y 0).val; rw [e0]; omega
  | ⟨1, _⟩ => show win0_1.index t 1 * 128 + 1 * (y 1).val = (y 1).val; rw [e1]; omega

/-- The bias window's block at every point is the whole bias array. -/
theorem blk_b (c : Dev nD) (t : Fin cfg0.N) (y : S128.Idx) :
    (iblk0 V c 2 t : Vec Ideal S128 .f32) y = (V c main_arg2 : S128.Idx → EReal) y := by
  obtain ⟨-, -, -, -, e0, -⟩ := idx_facts t
  unfold iblk0
  rw [View.read_apply]
  show V c main_arg2 _ = V c main_arg2 _
  refine congrArg (V c main_arg2) ?_
  funext a
  apply Fin.ext
  match a with
  | ⟨0, _⟩ => show win0_2.index t 0 * 128 + 1 * (y 0).val = (y 0).val; rw [e0]; omega

/-- What point t writes back is block t of the hidden layer of the arrays the region finds. -/
theorem flushed_eq (c : Dev nD) (t : Fin cfg0.N) :
    (dat0 V c).flushed 3 t
      = ((cfg0.win 3).blk t).view.read (Elt Ideal) (Net.hidden (V c main_arg0) (V c main_v0) (V c main_arg2)) := by
  show (cfg0.win 3).cut (grid0.coords t) ((dat0 V c).after 3 t) = _
  rw [after0_3]
  unfold out0_3
  rw [View.canon_unit_zero hz2]
  simp only [View.ld_unit_zero (S := S4000x602) hz2, View.ld_unit_zero (S := S602x128) hz2,
    View.ld_unit_zero (S := S128) hz1]
  obtain ⟨-, -, -, -, -, e0, e1⟩ := idx_facts t
  have hN : cfg0.N = 50 := N_0
  have ht : t.val < 50 := hN ▸ t.isLt
  funext j
  have hj0 : (j 0).val < 4000 := (j 0).isLt
  have hj1 : (j 1).val < 128 := (j 1).isLt
  have hP : 4000 * t.val + (j 0).val < 200000 := by omega
  have hemb : ((cfg0.win 3).blk t).view.emb j = ix2 (⟨4000 * t.val + (j 0).val, hP⟩ : Fin 200000) (j 1) := by
    funext a
    apply Fin.ext
    match a with
    | ⟨0, _⟩ => show win0_3.index t 0 * 4000 + 1 * (j 0).val = 4000 * t.val + (j 0).val; rw [e0]; omega
    | ⟨1, _⟩ => show win0_3.index t 1 * 128 + 1 * (j 1).val = (j 1).val; rw [e1]; omega
  have key := block_entry (V c main_arg0) (V c main_v0) (V c main_arg2) (iblk0 V c 0 t) (iblk0 V c 1 t) (iblk0 V c 2 t)
    (⟨4000 * t.val + (j 0).val, hP⟩ : Fin 200000) (j 0) (j 1)
    (fun k => blk_x V c t _ _ rfl rfl) (fun k => blk_w V c t _) (blk_b V c t _)
  exact (congrArg (k0_pay1 (F := Ideal) (iblk0 V c 0 t) (iblk0 V c 1 t) (iblk0 V c 2 t)) (eq_ix2 j)).trans
    (key.trans (congrArg (Net.hidden (V c main_arg0) (V c main_v0) (V c main_arg2)) hemb.symm))

/-- An index of the output array is in point t's block iff each coordinate is in the block's range on its axis. -/
theorem mem_blk (t : Fin cfg0.N) (i : S200000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v2).slice (win0_3.rect t)).set ↔ _
  rw [View.set_slice_whole, Rect.mem_set_unit]
  exact Iff.rfl

/-- Every row of the output array lies in the block of the point numbered by the row divided by 4000. -/
theorem cover (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 50 := N_0
  have hT : (i 0).val / 4000 < cfg0.N := by rw [hN]; omega
  obtain ⟨-, -, -, -, -, e0, e1⟩ := idx_facts ⟨(i 0).val / 4000, hT⟩
  have e0' : win0_3.index ⟨(i 0).val / 4000, hT⟩ (0 : Fin 2) = (i 0).val / 4000 := e0
  refine ⟨⟨(i 0).val / 4000, hT⟩, flush0_3 _, ?_⟩
  rw [mem_blk]
  intro a
  match a with
  | ⟨0, _⟩ =>
    show win0_3.index ⟨(i 0).val / 4000, hT⟩ (0 : Fin 2) * 4000 ≤ (i 0).val
      ∧ (i 0).val < win0_3.index ⟨(i 0).val / 4000, hT⟩ (0 : Fin 2) * 4000 + 4000
    rw [e0']; omega
  | ⟨1, _⟩ =>
    show win0_3.index ⟨(i 0).val / 4000, hT⟩ (1 : Fin 2) * 128 ≤ (i 1).val
      ∧ (i 1).val < win0_3.index ⟨(i 0).val / 4000, hT⟩ (1 : Fin 2) * 128 + 128
    rw [e1]; omega

/-- After the first region its output array is the hidden layer of the arrays it found. -/
theorem final (c : Dev nD) :
    (dat0 V c).arrAt 3 cfg0.N = Net.hidden (V c main_arg0) (V c main_v0) (V c main_arg2) :=
  (dat0 V c).arrAt_eq_of_cover 3 (Net.hidden (V c main_arg0) (V c main_v0) (V c main_arg2))
    (fun t _ => flushed_eq V c t) cover

end Cert.KernelIdeal.Hidden

end
-- ==== Proof.LibObjectAxis.lean ====
/-
  Layout reads around a pair of axes flattened into one, a middle unit axis, and a vector spread over two leading axes.

  A rank-3 array [a, b, c] and the matrix [a * b, c] that lists its (p, o) pairs row by row hold the same entries: row
  p * b + o of the matrix is the array's fibre at (p, o). Read at an entry:

  `shapeCast_abc_nc_apply`      [a, b, c] cast to [n, c] (n = a * b) reads, at (p * b + o, r), the operand at (p, o, r);
  `shapeCast_nc_abc_apply`      [n, c] cast to [a, b, c] reads, at (p, o, r), the operand at (p * b + o, r);
  `shapeCast_ac_a1c_apply`      [a, c] cast to [a, 1, c] reads, at (p, 0, r), the operand at (p, r);
  `broadcastTo_11c_abc_apply`   [1, 1, c] broadcast to [a, b, c] reads, at (p, q, r), the operand at (0, 0, r);
  `multiReduction_add_mid`      the sum over the middle axis of [a, b, c], at the ideal instance, read at (p, r), is the sum
                                over o of the operand at (p, o, r) (the accumulator pattern is the printed zero word).
-/
import Idealize.ShloMosaic.Lib.Pipeline.Value
import Idealize.ShloMosaic.Lib.ValueIdx
import Idealize.ShloMosaic.PureOps.Ideal.Laws

noncomputable section

open scoped BigOperators

namespace Cert.LibObjectAxis

open Idealize.ShloMosaic Idealize.ShloMosaic.ValueIdx

variable {α : Type}

/-- An [a, b, c] array cast to [n, c] reads, at row p * b + o and column r, the operand at (p, o, r): both sit at
    row-major position (p * b + o) * c + r. -/
theorem shapeCast_abc_nc_apply {a b c n : ℕ} (x : (⟨3, ![a, b, c]⟩ : Shape).Idx → α)
    (h : (⟨3, ![a, b, c]⟩ : Shape).ShapeCasts ⟨2, ![n, c]⟩) (p : Fin a) (o : Fin b) (r : Fin c)
    (hlt : p.val * b + o.val < n) :
    shapeCast ⟨2, ![n, c]⟩ x h (ix2 (⟨p.val * b + o.val, hlt⟩ : Fin n) r) = x (ix3 p o r) :=
  shapeCast_apply x h _ _ (by
    rw [Shape.rowMajor_val_three, Shape.rowMajor_val_two]
    rfl)

/-- An [n, c] matrix cast to [a, b, c] reads, at (p, o, r), the operand at row p * b + o and column r. -/
theorem shapeCast_nc_abc_apply {a b c n : ℕ} (x : (⟨2, ![n, c]⟩ : Shape).Idx → α)
    (h : (⟨2, ![n, c]⟩ : Shape).ShapeCasts ⟨3, ![a, b, c]⟩) (p : Fin a) (o : Fin b) (r : Fin c)
    (hlt : p.val * b + o.val < n) :
    shapeCast ⟨3, ![a, b, c]⟩ x h (ix3 p o r) = x (ix2 (⟨p.val * b + o.val, hlt⟩ : Fin n) r) :=
  shapeCast_apply x h _ _ (by
    rw [Shape.rowMajor_val_three, Shape.rowMajor_val_two]
    rfl)

/-- An [a, c] matrix cast to [a, 1, c] reads, at (p, u, r), the operand at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- A [1, 1, c] array broadcast to [a, b, c] reads, at (p, q, r), the operand at (0, 0, r). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- The sum over the middle axis of an [a, b, c] array of extended reals, read at (p, r): the sum over o of the
    operand at (p, o, r). -/
theorem multiReduction_add_mid {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (r : Fin c) :
    multiReduction .add [1] ⟨2, ![a, c]⟩ src 0x00000000#32 h hφ hacc (ix2 p r) = ∑ o : Fin b, src (ix3 p o r) :=
  (Ideal.multiReduction_add_single src 0x00000000#32 h hφ hacc (ix2 p r)).trans
    (Finset.sum_congr rfl fun k _ => congrArg src (funext fun ax => Fin.ext (by
      match ax with
      | ⟨0, _⟩ => rfl
      | ⟨1, _⟩ => rfl
      | ⟨2, _⟩ => rfl)))

end Cert.LibObjectAxis

end
-- ==== Proof.OutputPayload.lean ====
/-
  The second kernel's stored block, read at an entry.

  At a grid point the body holds a [1000, 25, 128] block g of gathered neighbour rows, the whole [128, 41] transposed
  output weights w and the [41] bias b. It stores the [1000, 41] block whose entry (p, q) is
  (∑ k, ((∑ j, g (p, j, k)) / 25) · w (k, q)) + b q: the sum over the middle axis from the zero word is the plain
  sum over the 25 neighbours, the changes of float format are the identity on extended reals, the product into a
  zero accumulator is the plain sum over the 128 hidden units, and the bias row is repeated down the rows.
-/
import proofs.«181294_j30322469110460_1_alg».proof.Proof.Gen.KernelIdeal.Skeleton
import proofs.«181294_j30322469110460_1_alg».proof.Proof.LibMatmulCols
import proofs.«181294_j30322469110460_1_alg».proof.Proof.LibObjectAxis
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Output

open Cert.KernelIdeal Cert.KernelIdeal.Gen
open Idealize.ShloMosaic Idealize.ShloMosaic.ValueIdx

/-- Entry (p, q) of the block the second kernel stores: the neighbour mean of row p against column q of w, plus the bias. -/
theorem pay_apply (g : Vec Ideal S1000x25x128 .bf16) (w : Vec Ideal S128x41 .f32) (b : Vec Ideal S41 .f32)
    (p : Fin 1000) (q : Fin 41) :
    k1_pay1 (F := Ideal) g w b (ix2 p q)
      = (∑ k : Fin 128, Ideal.div (∑ j : Fin 25, g (ix3 p j k)) (Ideal.ofBits .f32 0x41C80000#32) * w (ix2 k q))
        + b (ix1 q) := by
  have hs : ∀ k : Fin 128,
      multiReduction (F := Ideal) .add [1] S1000x128
        (extf .f32 (shapeCast S1000x25x128 g shapeCasts_S1000x25x128_S1000x25x128) bitsLt_bf16_f32) 0x00000000#32
        reduces_S1000x25x128_S1000x128 (.inl rfl) rfl (ix2 p k)
      = (∑ j : Fin 25, g (ix3 p j k) : EReal) := fun k => by
    rw [shapeCast_self]
    exact Cert.LibObjectAxis.multiReduction_add_mid (extf .f32 g bitsLt_bf16_f32) reduces_S1000x25x128_S1000x128
      (.inl rfl) rfl p k
  have hm : matmul (F := Ideal) dot_S1000x128_S128x41_S1000x41_1_0_0_1_n_n none
        (truncf .bf16 (divf (multiReduction (F := Ideal) .add [1] S1000x128
          (extf .f32 (shapeCast S1000x25x128 g shapeCasts_S1000x25x128_S1000x25x128) bitsLt_bf16_f32) 0x00000000#32
          reduces_S1000x25x128_S1000x128 (.inl rfl) rfl) (broadcast S1000x128 (Scalar.ofBits .f32 0x41C80000#32)))
          bitsLt_bf16_f32)
        (truncf .bf16 (shapeCast S128x41 w shapeCasts_S128x41_S128x41) bitsLt_bf16_f32)
        (constant (F := Ideal) S1000x41 .f32 0x00000000#32) (ix2 p q)
      = (∑ k : Fin 128, Ideal.div (∑ j : Fin 25, g (ix3 p j k)) (Ideal.ofBits .f32 0x41C80000#32) * w (ix2 k q) : EReal) := by
    rw [shapeCast_self w]
    refine (Cert.Lib.MatmulCols.matmul_zero_plain dot_S1000x128_S128x41_S1000x41_1_0_0_1_n_n_wf none _ _ p q).trans ?_
    refine Finset.sum_congr rfl fun k _ => ?_
    show Ideal.div ((multiReduction (F := Ideal) .add [1] S1000x128
          (extf .f32 (shapeCast S1000x25x128 g shapeCasts_S1000x25x128_S1000x25x128) bitsLt_bf16_f32) 0x00000000#32
          reduces_S1000x25x128_S1000x128 (.inl rfl) rfl (ix2 p k) : EReal)) (Ideal.ofBits .f32 0x41C80000#32) * w (ix2 k q) = _
    rw [hs k]
  have hb : broadcastTo S1000x41 (shapeCast S1x41 b shapeCasts_S41_S1x41) broadcasts_S1x41_S1000x41 (ix2 p q)
      = b (ix1 q) :=
    (broadcastTo_1b_ab_apply _ broadcasts_S1x41_S1000x41 p q).trans
      (shapeCast_a_1a_apply b shapeCasts_S41_S1x41 (0 : Fin 1) q)
  show (matmul (F := Ideal) dot_S1000x128_S128x41_S1000x41_1_0_0_1_n_n none
        (truncf .bf16 (divf (multiReduction (F := Ideal) .add [1] S1000x128
          (extf .f32 (shapeCast S1000x25x128 g shapeCasts_S1000x25x128_S1000x25x128) bitsLt_bf16_f32) 0x00000000#32
          reduces_S1000x25x128_S1000x128 (.inl rfl) rfl) (broadcast S1000x128 (Scalar.ofBits .f32 0x41C80000#32)))
          bitsLt_bf16_f32)
        (truncf .bf16 (shapeCast S128x41 w shapeCasts_S128x41_S128x41) bitsLt_bf16_f32)
        (constant (F := Ideal) S1000x41 .f32 0x00000000#32) (ix2 p q) : EReal)
      + broadcastTo S1000x41 (shapeCast S1x41 b shapeCasts_S41_S1x41) broadcasts_S1x41_S1000x41 (ix2 p q) = _
  rw [hm, hb]

end Cert.KernelIdeal.Output

end
-- ==== Proof.OutputArray.lean ====
/-
  The second region's output array is the neighbour mean and output layer of the arrays the region finds.

  The region walks 10 row blocks. At point t the gathered-rows window holds seed nodes 1000 t … 1000 t + 999 (all 25
  neighbours, all 128 hidden units), the weight and bias windows hold their whole arrays, and the body's stored block is
  written back to rows 1000 t … 1000 t + 999 of the output. Each stored entry is `Net.logits`' entry at its row of
  the whole arrays, the 10 blocks cover the 10000 rows, so after the region the output array is `Net.logits` of the
  three input arrays.
-/
import proofs.«181294_j30322469110460_1_alg».proof.Proof.Gen.KernelIdeal.Frame
import proofs.«181294_j30322469110460_1_alg».proof.Proof.OutputPayload
import proofs.«181294_j30322469110460_1_alg».proof.Proof.Net
import Idealize.ShloMosaic.Lib.Pipeline.Value

noncomputable section

open scoped BigOperators

namespace Cert.KernelIdeal.Output

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The block index of every window at point t: the gathered rows and the output move down one block of seed nodes
    per point, the weights and the bias stay. -/
theorem idx_facts : ∀ t : Fin cfg1.N, win1_0.index t (0 : Fin 3) = t.val ∧ win1_0.index t (1 : Fin 3) = 0
    ∧ win1_0.index t (2 : Fin 3) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- An entry of the body's stored block, from what its three loaded blocks hold in terms of whole arrays. -/
theorem block_entry (G : (⟨3, ![10000, 25, 128]⟩ : Shape).Idx → EReal) (Wt : (⟨2, ![128, 41]⟩ : Shape).Idx → EReal)
    (B : (⟨1, ![41]⟩ : Shape).Idx → EReal)
    (g : Vec Ideal S1000x25x128 .bf16) (w : Vec Ideal S128x41 .f32) (b : Vec Ideal S41 .f32)
    (P : Fin 10000) (p : Fin 1000) (q : Fin 41)
    (hg : ∀ (j : Fin 25) (k : Fin 128), g (ix3 p j k) = G (ix3 P j k))
    (hw : ∀ (k : Fin 128), w (ix2 k q) = Wt (ix2 k q)) (hb : b (ix1 q) = B (ix1 q)) :
    k1_pay1 (F := Ideal) g w b (ix2 p q) = Net.logits G Wt B (ix2 P q) := by
  rw [pay_apply, Net.logits_apply, hb]
  simp only [hg, hw]

/-- The gathered-rows window's block at point t is seed nodes 1000 t … of the gathered array. -/
theorem blk_g (c : Dev nD) (t : Fin cfg1.N) (y : S1000x25x128.Idx) (k : S10000x25x128.Idx)
    (hk0 : (k 0).val = 1000 * t.val + (y 0).val) (hk1 : (k 1).val = (y 1).val) (hk2 : (k 2).val = (y 2).val) :
    (iblk1 V c 0 t : Vec Ideal S1000x25x128 .bf16) y = (V c main_v17 : S10000x25x128.Idx → EReal) k := by
  obtain ⟨e0, e1, e2, -⟩ := idx_facts t
  unfold iblk1
  rw [View.read_apply]
  show V c main_v17 _ = V c main_v17 _
  refine congrArg (V c main_v17) ?_
  funext a
  apply Fin.ext
  match a with
  | ⟨0, _⟩ => show win1_0.index t 0 * 1000 + 1 * (y 0).val = (k 0).val; rw [e0, hk0]; omega
  | ⟨1, _⟩ => show win1_0.index t 1 * 25 + 1 * (y 1).val = (k 1).val; rw [e1, hk1]; omega
  | ⟨2, _⟩ => show win1_0.index t 2 * 128 + 1 * (y 2).val = (k 2).val; rw [e2, hk2]; omega

/-- The weight window's block at every point is the whole transposed weight array. -/
theorem blk_w (c : Dev nD) (t : Fin cfg1.N) (y : S128x41.Idx) :
    (iblk1 V c 1 t : Vec Ideal S128x41 .f32) y = (V c main_v1 : S128x41.Idx → EReal) y := by
  obtain ⟨-, -, -, e0, e1, -⟩ := idx_facts t
  unfold iblk1
  rw [View.read_apply]
  show V c main_v1 _ = V c main_v1 _
  refine congrArg (V c main_v1) ?_
  funext a
  apply Fin.ext
  match a with
  | ⟨0, _⟩ => show win1_1.index t 0 * 128 + 1 * (y 0).val = (y 0).val; rw [e0]; omega
  | ⟨1, _⟩ => show win1_1.index t 1 * 41 + 1 * (y 1).val = (y 1).val; rw [e1]; omega

/-- The bias window's block at every point is the whole bias array. -/
theorem blk_b (c : Dev nD) (t : Fin cfg1.N) (y : S41.Idx) :
    (iblk1 V c 2 t : Vec Ideal S41 .f32) y = (V c main_arg4 : S41.Idx → EReal) y := by
  obtain ⟨-, -, -, -, -, e0, -⟩ := idx_facts t
  unfold iblk1
  rw [View.read_apply]
  show V c main_arg4 _ = V c main_arg4 _
  refine congrArg (V c main_arg4) ?_
  funext a
  apply Fin.ext
  match a with
  | ⟨0, _⟩ => show win1_2.index t 0 * 41 + 1 * (y 0).val = (y 0).val; rw [e0]; omega

/-- What point t writes back is block t of `Net.logits` of the arrays the region finds. -/
theorem flushed_eq (c : Dev nD) (t : Fin cfg1.N) :
    (dat1 V c).flushed 3 t
      = ((cfg1.win 3).blk t).view.read (Elt Ideal) (Net.logits (V c main_v17) (V c main_v1) (V c main_arg4)) := by
  show (cfg1.win 3).cut (grid1.coords t) ((dat1 V c).after 3 t) = _
  rw [after1_3]
  unfold out1_3
  rw [View.canon_unit_zero hz2]
  simp only [View.ld_unit_zero (S := S1000x25x128) hz3, View.ld_unit_zero (S := S128x41) hz2,
    View.ld_unit_zero (S := S41) hz1]
  obtain ⟨-, -, -, -, -, -, e0, e1⟩ := idx_facts t
  have hN : cfg1.N = 10 := N_1
  have ht : t.val < 10 := hN ▸ t.isLt
  funext j
  have hj0 : (j 0).val < 1000 := (j 0).isLt
  have hj1 : (j 1).val < 41 := (j 1).isLt
  have hP : 1000 * t.val + (j 0).val < 10000 := by omega
  have hemb : ((cfg1.win 3).blk t).view.emb j = ix2 (⟨1000 * t.val + (j 0).val, hP⟩ : Fin 10000) (j 1) := by
    funext a
    apply Fin.ext
    match a with
    | ⟨0, _⟩ => show win1_3.index t 0 * 1000 + 1 * (j 0).val = 1000 * t.val + (j 0).val; rw [e0]; omega
    | ⟨1, _⟩ => show win1_3.index t 1 * 41 + 1 * (j 1).val = (j 1).val; rw [e1]; omega
  have key := block_entry (V c main_v17) (V c main_v1) (V c main_arg4) (iblk1 V c 0 t) (iblk1 V c 1 t) (iblk1 V c 2 t)
    (⟨1000 * t.val + (j 0).val, hP⟩ : Fin 10000) (j 0) (j 1)
    (fun _ _ => blk_g V c t _ _ rfl rfl rfl) (fun _ => blk_w V c t _) (blk_b V c t _)
  exact (congrArg (k1_pay1 (F := Ideal) (iblk1 V c 0 t) (iblk1 V c 1 t) (iblk1 V c 2 t)) (eq_ix2 j)).trans
    (key.trans (congrArg (Net.logits (V c main_v17) (V c main_v1) (V c main_arg4)) hemb.symm))

/-- An index of the output array is in point t's block iff each coordinate is in the block's range on its axis. -/
theorem mem_blk (t : Fin cfg1.N) (i : S10000x41.Idx) :
    i ∈ ((cfg1.win 3).blk t).view.set ↔ ∀ a : Fin 2, win1_3.index t a * S1000x41.size a ≤ (i a).val
      ∧ (i a).val < win1_3.index t a * S1000x41.size a + S1000x41.size a := by
  show i ∈ ((View.whole main_v18).slice (win1_3.rect t)).set ↔ _
  rw [View.set_slice_whole, Rect.mem_set_unit]
  exact Iff.rfl

/-- Every row of the output array lies in the block of the point numbered by the row divided by 1000. -/
theorem cover (i : S10000x41.Idx) :
    ∃ t : Fin cfg1.N, (cfg1.win 3).flush t = true ∧ i ∈ ((cfg1.win 3).blk t).view.set := by
  have hi0 : (i 0).val < 10000 := (i 0).isLt
  have hi1 : (i 1).val < 41 := (i 1).isLt
  have hN : cfg1.N = 10 := N_1
  have hT : (i 0).val / 1000 < cfg1.N := by rw [hN]; omega
  obtain ⟨-, -, -, -, -, -, e0, e1⟩ := idx_facts ⟨(i 0).val / 1000, hT⟩
  have e0' : win1_3.index ⟨(i 0).val / 1000, hT⟩ (0 : Fin 2) = (i 0).val / 1000 := e0
  refine ⟨⟨(i 0).val / 1000, hT⟩, flush1_3 _, ?_⟩
  rw [mem_blk]
  intro a
  match a with
  | ⟨0, _⟩ =>
    show win1_3.index ⟨(i 0).val / 1000, hT⟩ (0 : Fin 2) * 1000 ≤ (i 0).val
      ∧ (i 0).val < win1_3.index ⟨(i 0).val / 1000, hT⟩ (0 : Fin 2) * 1000 + 1000
    rw [e0']; omega
  | ⟨1, _⟩ =>
    show win1_3.index ⟨(i 0).val / 1000, hT⟩ (1 : Fin 2) * 41 ≤ (i 1).val
      ∧ (i 1).val < win1_3.index ⟨(i 0).val / 1000, hT⟩ (1 : Fin 2) * 41 + 41
    rw [e1]; omega

/-- After the second region its output array is `Net.logits` of the arrays it found. -/
theorem final (c : Dev nD) :
    (dat1 V c).arrAt 3 cfg1.N = Net.logits (V c main_v17) (V c main_v1) (V c main_arg4) :=
  (dat1 V c).arrAt_eq_of_cover 3 (Net.logits (V c main_v17) (V c main_v1) (V c main_arg4))
    (fun t _ => flushed_eq V c t) cover

end Cert.KernelIdeal.Output

end
-- ==== Proof.Gathered.lean ====
/-
  The two row gathers the programs share, as one function.

  From a [200000, 128] table h of hidden rows, a [50000] index array x5 and a [10000, 25] index array x6: each index
  array is normalised (a negative entry has the axis' length added), the first gather picks row x5 r of h for each
  of the 50000 intermediate nodes, and the second picks row x6 (n, j) of that for each seed node n and neighbour j.
  The result is the [10000, 25, 128] array of neighbour rows. Both programs apply exactly these operations to their
  hidden tables, so equal tables give equal neighbour rows.
-/
import proofs.«181294_j30322469110460_1_alg».proof.Proof.Gen.ReferenceIdeal

noncomputable section

namespace Cert.ReferenceIdeal.Chain

open Cert.ReferenceIdeal Cert.ReferenceIdeal.Gen Idealize.ShloMosaic

variable {F : FTy → Type} [FloatOps F]

/-- The neighbour rows: the second gather of the first gather of the hidden table. -/
def gathered (h : (⟨S200000x128, .f32⟩ : BufTy).Contents (Elt F)) (x5 : (⟨S50000, .i32⟩ : BufTy).Contents (Elt F))
    (x6 : (⟨S10000x25, .i32⟩ : BufTy).Contents (Elt F)) : (⟨S10000x25x128, .f32⟩ : BufTy).Contents (Elt F) :=
  Host.gather gather_S50000x128_S10000x25x1_S10000x25x128_2_0_n_n_0_2_1128
    (Host.gather gather_S200000x128_S50000x1_S50000x128_1_0_n_n_0_1_1128 h
      (broadcastInDim S50000x1 ![0] bcast_S50000_S50000x1_0
        (select (cmpi .slt x5 (broadcastInDim S50000 ![] bcast_S_S50000 (constantI S_ 32 0#32)))
          (addi x5 (broadcastInDim S50000 ![] bcast_S_S50000 (constantI S_ 32 200000#32))) x5)))
    (broadcastInDim S10000x25x1 ![0, 1] bcast_S10000x25_S10000x25x1_0_1
      (select (cmpi .slt x6 (broadcastInDim S10000x25 ![] bcast_S_S10000x25 (constantI S_ 32 0#32)))
        (addi x6 (broadcastInDim S10000x25 ![] bcast_S_S10000x25 (constantI S_ 32 50000#32))) x6))

end Cert.ReferenceIdeal.Chain

end
-- ==== Proof.Boundaries.lean ====
/-
  What the two pipelined regions find in the arrays they read.

  Before the first region the host has only transposed the two weight matrices, so the region finds the features and
  the first bias as launched and the first weights transposed. Between the regions the host normalises the two index
  arrays, gathers rows twice and changes the float format; nothing else touches the second weights' transpose or the
  second bias. So the second region finds the neighbour rows of whatever the first region left in its output array,
  the second weights transposed, and the second bias as launched.
-/
import proofs.«181294_j30322469110460_1_alg».proof.Proof.Gen.KernelIdeal.Frame
import proofs.«181294_j30322469110460_1_alg».proof.Proof.Gathered

noncomputable section

namespace Cert.KernelIdeal.Bound

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first region finds the features as launched. -/
theorem entry0_x (c : Dev nD) : V1 m ρ c main_arg0 = m ((c : Thread nD τ).loc main_arg0) := by
  show StableHlo.after hostOps0 (W0 m ρ c) (Proc.devRef .tc main_arg0) = _
  after_results

/-- The first region finds the first bias as launched. -/
theorem entry0_b (c : Dev nD) : V1 m ρ c main_arg2 = m ((c : Thread nD τ).loc main_arg2) := by
  show StableHlo.after hostOps0 (W0 m ρ c) (Proc.devRef .tc main_arg2) = _
  after_results

/-- The first region finds the first weights transposed. -/
theorem entry0_w (c : Dev nD) :
    V1 m ρ c main_v0 = transpose S602x128 [1, 0] (m ((c : Thread nD τ).loc main_arg1)) transposes_S128x602_S602x128_1_0 := by
  show StableHlo.after hostOps0 (W0 m ρ c) (Proc.devRef .tc main_v0) = _
  after_results

/-- After the first region the first index array is as launched. -/
theorem mid_x5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-- After the first region the second index array is as launched. -/
theorem mid_x6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results

set_option maxHeartbeats 2000000 in
/-- The second region finds the neighbour rows of the first region's output array, in the narrower float format. -/
theorem entry1_g (c : Dev nD) :
    V3 m ρ c main_v17 = truncf .bf16 (Cert.ReferenceIdeal.Chain.gathered (F := F) ((dat0 (V1 m ρ) c).arrAt 3 cfg0.N)
      (m ((c : Thread nD τ).loc main_arg5)) (m ((c : Thread nD τ).loc main_arg6))) bitsLt_bf16_f32 := by
  show StableHlo.after hostOps1 (W2 m ρ c) (Proc.devRef .tc main_v17) = _
  after_results_simp
  rw [mid_x5, mid_x6, show W2 m ρ c (Proc.devRef .tc main_v2) = (dat0 (V1 m ρ) c).arrAt 3 cfg0.N from W2_arr m ρ c 3]
  rfl

/-- The second region finds the second weights transposed. -/
theorem entry1_w (c : Dev nD) :
    V3 m ρ c main_v1 = transpose S128x41 [1, 0] (m ((c : Thread nD τ).loc main_arg3)) transposes_S41x128_S128x41_1_0 := by
  show StableHlo.after hostOps1 (W2 m ρ c) (Proc.devRef .tc main_v1) = _
  after_results
  refine (W2_of_ne m ρ c main_v1 (by decide)).trans ?_
  show StableHlo.after hostOps0 (W0 m ρ c) (Proc.devRef .tc main_v1) = _
  after_results

/-- The second region finds the second bias as launched. -/
theorem entry1_b (c : Dev nD) : V3 m ρ c main_arg4 = m ((c : Thread nD τ).loc main_arg4) := by
  show StableHlo.after hostOps1 (W2 m ρ c) (Proc.devRef .tc main_arg4) = _
  after_results
  refine (W2_of_ne m ρ c main_arg4 (by decide)).trans ?_
  show StableHlo.after hostOps0 (W0 m ρ c) (Proc.devRef .tc main_arg4) = _
  after_results

end Cert.KernelIdeal.Bound

end
-- ==== Proof.RefNet.lean ====
/-
  The reference's result is the network's two whole-array functions composed through the shared gathers.

  Read one operation at a time, the reference's hidden table is `Net.hidden` of the features, the TRANSPOSED first
  weights and the first bias: its product contracts the features' and the weights' second axes, which is the sum over
  k of x (n, k) · W (h, k). Its result is `Net.logits` of the gathered neighbour rows, the TRANSPOSED second weights
  and the second bias: its sum over the neighbours starts from the zero word, and 0 + s = s on the extended reals; its
  quotient by the word of 25 and the kernel's are one function.
-/
import proofs.«181294_j30322469110460_1_alg».proof.Proof.Gen.ReferenceIdeal.Read
import proofs.«181294_j30322469110460_1_alg».proof.Proof.Net
import proofs.«181294_j30322469110460_1_alg».proof.Proof.Gathered
import Idealize.ShloMosaic.Lib.Pipeline.Value
import Idealize.ShloMosaic.Lib.ValueIdx

noncomputable section

open scoped BigOperators

namespace Cert.ReferenceIdeal.RefNet

open Cert.ReferenceIdeal Cert.ReferenceIdeal.Gen Cert.ReferenceIdeal.Read
open Idealize.ShloMosaic Idealize.ShloMosaic.ValueIdx

/-- The reference's neighbour rows are the shared gathers of its hidden table. -/
theorem gathered_ref {F : FTy → Type} [FloatOps F] (x0 : (⟨S200000x602, .f32⟩ : BufTy).Contents (Elt F))
    (x1 : (⟨S128x602, .f32⟩ : BufTy).Contents (Elt F)) (x2 : (⟨S128, .f32⟩ : BufTy).Contents (Elt F))
    (x5 : (⟨S50000, .i32⟩ : BufTy).Contents (Elt F)) (x6 : (⟨S10000x25, .i32⟩ : BufTy).Contents (Elt F)) :
    val_main_v18 (F := F) x0 x1 x2 x5 x6 = Chain.gathered (val_main_v4 (F := F) x0 x1 x2) x5 x6 := rfl

/-- The reference's hidden table is the first layer of the features, the transposed first weights and the first bias. -/
theorem hidden_ref (x0 : (⟨S200000x602, .f32⟩ : BufTy).Contents (Elt Ideal))
    (x1 : (⟨S128x602, .f32⟩ : BufTy).Contents (Elt Ideal)) (x2 : (⟨S128, .f32⟩ : BufTy).Contents (Elt Ideal))
    (hT : (⟨2, ![128, 602]⟩ : Shape).Transposes [1, 0] ⟨2, ![602, 128]⟩) :
    Net.hidden x0 (transpose ⟨2, ![602, 128]⟩ [1, 0] x1 hT) x2 = val_main_v4 (F := Ideal) x0 x1 x2 := by
  funext i
  obtain ⟨n, h, rfl⟩ : ∃ (n : Fin 200000) (h : Fin 128), i = ix2 n h := ⟨i 0, i 1, eq_ix2 i⟩
  rw [Net.hidden_apply, val_main_v4_apply, val_main_v3_apply, val_main_v0_apply, val_main_v2_apply, val_main_v1_apply,
    val_main_call0_v0_apply, val_main_call0_cst_apply]
  have hl : ∀ k : Fin 602, lidx_main_v0 (ix2 n h) k = ix2 n k := fun k =>
    funext fun a => match a with | ⟨0, _⟩ => rfl | ⟨1, _⟩ => rfl
  have hr : ∀ k : Fin 602, ridx_main_v0 (ix2 n h) k = ix2 h k := fun k =>
    funext fun a => match a with | ⟨0, _⟩ => rfl | ⟨1, _⟩ => rfl
  have hb : idx_main_v1 (idx_main_v2 (ix2 n h)) = ix1 h := funext fun a => match a with | ⟨0, _⟩ => rfl
  have ht : ∀ k : Fin 602, transpose ⟨2, ![602, 128]⟩ [1, 0] x1 hT (ix2 k h) = x1 (ix2 h k) := fun k =>
    transpose_apply [1, 0] x1 hT (ix2 k h) (ix2 h k) (fun b => by match b with | ⟨0, _⟩ => rfl | ⟨1, _⟩ => rfl)
  simp only [hl, hr, hb, ht]
  rfl

/-- The reference's result is the mean-and-output layer of its neighbour rows, the transposed second weights and the
    second bias. -/
theorem logits_ref (x0 : (⟨S200000x602, .f32⟩ : BufTy).Contents (Elt Ideal))
    (x1 : (⟨S128x602, .f32⟩ : BufTy).Contents (Elt Ideal)) (x2 : (⟨S128, .f32⟩ : BufTy).Contents (Elt Ideal))
    (x3 : (⟨S41x128, .f32⟩ : BufTy).Contents (Elt Ideal)) (x4 : (⟨S41, .f32⟩ : BufTy).Contents (Elt Ideal))
    (x5 : (⟨S50000, .i32⟩ : BufTy).Contents (Elt Ideal)) (x6 : (⟨S10000x25, .i32⟩ : BufTy).Contents (Elt Ideal))
    (g : (⟨3, ![10000, 25, 128]⟩ : Shape).Idx → EReal) (hg : val_main_v18 (F := Ideal) x0 x1 x2 x5 x6 = g)
    (hT : (⟨2, ![41, 128]⟩ : Shape).Transposes [1, 0] ⟨2, ![128, 41]⟩) :
    Net.logits g (transpose ⟨2, ![128, 41]⟩ [1, 0] x3 hT) x4 = val_main_v25 (F := Ideal) x0 x1 x2 x3 x4 x5 x6 := by
  funext i
  obtain ⟨n, c, rfl⟩ : ∃ (n : Fin 10000) (c : Fin 41), i = ix2 n c := ⟨i 0, i 1, eq_ix2 i⟩
  rw [Net.logits_apply, val_main_v25_apply, val_main_v22_apply, val_main_v24_apply, val_main_v23_apply]
  simp only [val_main_v21_apply, val_main_v19_apply, val_main_v20_apply, val_main_cst_3_apply, val_main_cst_apply, hg]
  have h19 : ∀ (k : Fin 128) (j : Fin 25), idx_main_v19 (lidx_main_v22 (ix2 n c) k) j = ix3 n j k := fun k j =>
    funext fun a => match a with | ⟨0, _⟩ => rfl | ⟨1, _⟩ => rfl | ⟨2, _⟩ => rfl
  have hr : ∀ k : Fin 128, ridx_main_v22 (ix2 n c) k = ix2 c k := fun k =>
    funext fun a => match a with | ⟨0, _⟩ => rfl | ⟨1, _⟩ => rfl
  have hb : idx_main_v23 (idx_main_v24 (ix2 n c)) = ix1 c := funext fun a => match a with | ⟨0, _⟩ => rfl
  have ht : ∀ k : Fin 128, transpose ⟨2, ![128, 41]⟩ [1, 0] x3 hT (ix2 k c) = x3 (ix2 c k) := fun k =>
    transpose_apply [1, 0] x3 hT (ix2 k c) (ix2 c k) (fun b => by match b with | ⟨0, _⟩ => rfl | ⟨1, _⟩ => rfl)
  simp only [h19, hr, hb, ht, Ideal.ofBits_def, Ideal.ofBits_zero_f32, zero_add, Ideal.hostDivf_def, Ideal.addf_def]

end Cert.ReferenceIdeal.RefNet

end
-- ==== Proof.KernelNet.lean ====
/-
  The idealized kernel's result array is the reference's result term of the launch arrays.

  The first region leaves the hidden layer of the features, the transposed first weights and the first bias in its
  output array, which is the reference's hidden table. The host then gathers neighbour rows from that array exactly as
  the reference gathers them from its table (the change to the narrower float format is the identity on extended
  reals). The second region leaves the mean-and-output layer of those rows, the transposed second weights and the
  second bias, which is the reference's result.
-/
import proofs.«181294_j30322469110460_1_alg».proof.Proof.HiddenArray
import proofs.«181294_j30322469110460_1_alg».proof.Proof.OutputArray
import proofs.«181294_j30322469110460_1_alg».proof.Proof.Boundaries
import proofs.«181294_j30322469110460_1_alg».proof.Proof.RefNet

noncomputable section

namespace Cert.KernelIdeal.KNet

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first region its output array is the reference's hidden table of the launch arrays. -/
theorem hidden_eq (c : Dev nD) :
    (dat0 (V1 m ρ) c).arrAt 3 cfg0.N
      = Cert.ReferenceIdeal.Read.val_main_v4 (F := Ideal) (m ((c : Thread nD τ).loc main_arg0))
          (m ((c : Thread nD τ).loc main_arg1)) (m ((c : Thread nD τ).loc main_arg2)) := by
  rw [Hidden.final (V1 m ρ) c, Bound.entry0_x m ρ c, Bound.entry0_w m ρ c, Bound.entry0_b m ρ c]
  exact Cert.ReferenceIdeal.RefNet.hidden_ref _ _ _ _

/-- After the second region its output array is the reference's result term of the launch arrays. -/
theorem result_eq (c : Dev nD) :
    (dat1 (V3 m ρ) c).arrAt 3 cfg1.N
      = Cert.ReferenceIdeal.Read.val_main_v25 (F := Ideal) (m ((c : Thread nD τ).loc main_arg0))
          (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6)) := by
  rw [Output.final (V3 m ρ) c, Bound.entry1_g m ρ c, Bound.entry1_w m ρ c, Bound.entry1_b m ρ c, hidden_eq m ρ c]
  exact Cert.ReferenceIdeal.RefNet.logits_ref _ _ _ _ _ _ _ _ (Cert.ReferenceIdeal.RefNet.gathered_ref _ _ _ _ _) _

end Cert.KernelIdeal.KNet

end
-- ==== Proof.lean ====
/-
  The certificate of a two-layer neighbour-sampling network computed by two pipelined kernels with two row gathers
  between them, against its plain array form.

  On the extended reals both programs compute, for each of the 10000 seed nodes n and 41 classes c,
  (∑ k, ((∑ j, H (r (n, j), k)) / 25) · W₂ (c, k)) + b₂ c, where H (v, k) is the larger of zero and
  (∑ f, x (v, f) · W₁ (k, f)) + b₁ k and r (n, j) is the node reached through the two index arrays. The kernels read the
  weights transposed, tile the rows into 50 and 10 blocks, round to a narrower float format around each product (the
  identity on extended reals) and start their sums from nothing where the reference starts from the zero word
  (0 + s = s): no other difference, and no step needs the inputs finite. The three frames are the generated frame of
  each kernel program and the reference's generated run; the idealization rewrote no operation.
-/
import proofs.«181294_j30322469110460_1_alg».proof.Defs
import proofs.«181294_j30322469110460_1_alg».proof.Proof.Gen.Kernel
import proofs.«181294_j30322469110460_1_alg».proof.Proof.Gen.Kernel.Frame
import proofs.«181294_j30322469110460_1_alg».proof.Proof.Gen.KernelIdeal
import proofs.«181294_j30322469110460_1_alg».proof.Proof.Gen.KernelIdeal.Frame
import proofs.«181294_j30322469110460_1_alg».proof.Proof.Gen.ReferenceIdeal
import proofs.«181294_j30322469110460_1_alg».proof.Proof.Gen.Pre_finite_inputs
import proofs.«181294_j30322469110460_1_alg».proof.Proof.Gen.ReferenceIdeal.Run
import proofs.«181294_j30322469110460_1_alg».proof.Proof.Gen.ReferenceIdeal.Read
import proofs.«181294_j30322469110460_1_alg».proof.Proof.KernelRun
import proofs.«181294_j30322469110460_1_alg».proof.Proof.KernelNet

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on the seven arguments both programs end with the reference's result term of those
    arguments in their result buffers. -/
theorem algebraic : Cert.algebraic_KernelIdeal_ReferenceIdeal := by
  intro m ρ m' ρ' _ hagree
  refine ⟨fun c => Cert.ReferenceIdeal.Read.val_main_v25 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KNet.result_eq m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
